-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2x2048 : Shape := ⟨3, ![16384, 2, 2048]⟩
abbrev S_ : Shape := ⟨0, ![]⟩

class Facts : Prop where
  bcast_S_S16384x2x2048 : S_.BroadcastsInDim S16384x2x2048 (![] : Fin 0 → Fin S16384x2x2048.rank)
  reducesTo_S16384x2x2048_S_d0_1_2 : S16384x2x2048.ReducesTo [0, 1, 2] S_
  h_S_ : 0 < S_.numel

variable [Facts]

def fn {F : FTy → Type} [FloatOps F] (main_arg0 : FVec F S16384x2x2048 .f32) : IVec S_ 1 :=
  let main_v0 : FVec F S16384x2x2048 .f32 := Host.absf main_arg0
  let main_cst : FVec F S_ .f32 := constant S_ .f32 0x7F800000#32
  let main_v1 : FVec F S16384x2x2048 .f32 := broadcastInDim S16384x2x2048 ![] bcast_S_S16384x2x2048 main_cst
  let main_v2 : IVec S16384x2x2048 1 := cmpf .olt main_v0 main_v1
  let main_c : IVec S_ 1 := constantI S_ 1 1#1
  let main_v3 : IVec S_ 1 := (fun x v => Host.reduce IntOp.andi x v reducesTo_S16384x2x2048_S_d0_1_2 h_S_) main_v2 main_c
  main_v3
-- ==== Kernel.lean ====
abbrev S16384x2x2048 : Shape := ⟨3, ![16384, 2, 2048]⟩
abbrev S256x2x2048 : Shape := ⟨3, ![256, 2, 2048]⟩
abbrev S256x2x2028 : Shape := ⟨3, ![256, 2, 2028]⟩
abbrev S256x2x10 : Shape := ⟨3, ![256, 2, 10]⟩
abbrev S256x2x2038 : Shape := ⟨3, ![256, 2, 2038]⟩
abbrev S256x1x2048 : Shape := ⟨3, ![256, 1, 2048]⟩
abbrev S256x2048 : Shape := ⟨2, ![256, 2048]⟩

abbrev nBuf : Space → Nat
  | .hbm => 2
  | .vmem => 4
  | .smem => 0
  | _ => 0

abbrev bufTy : (tb : Table) → Fin (tcTables nBuf tb) → BufTy
  | .hbm, ⟨0, _⟩ => ⟨S16384x2x2048, .f32⟩
  | .hbm, ⟨1, _⟩ => ⟨S16384x2x2048, .f32⟩
  | .local _ .vmem, ⟨0, _⟩ => ⟨S256x2x2048, .f32⟩
  | .local _ .vmem, ⟨1, _⟩ => ⟨S256x2x2048, .f32⟩
  | .local _ .vmem, ⟨2, _⟩ => ⟨S256x2x2048, .f32⟩
  | .local _ .vmem, ⟨3, _⟩ => ⟨S256x2x2048, .f32⟩
  | _, _ => ⟨S16384x2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x2x2048_S256x2x2048_0_0_0 : ∀ a, (![0, 0, 0] : Fin 3 → Nat) a + S256x2x2048.size a ≤ S256x2x2048.size a
  h_S256x2x2048 : 0 < S256x2x2048.numel
  slices_S256x2x2048_o0_0_7_S256x2x2028 : S256x2x2048.Slices ![0, 0, 7] S256x2x2028
  slices_S256x2x2048_o0_0_8_S256x2x2028 : S256x2x2048.Slices ![0, 0, 8] S256x2x2028
  slices_S256x2x2048_o0_0_9_S256x2x2028 : S256x2x2048.Slices ![0, 0, 9] S256x2x2028
  slices_S256x2x2048_o0_0_11_S256x2x2028 : S256x2x2048.Slices ![0, 0, 11] S256x2x2028
  slices_S256x2x2048_o0_0_12_S256x2x2028 : S256x2x2048.Slices ![0, 0, 12] S256x2x2028
  slices_S256x2x2048_o0_0_13_S256x2x2028 : S256x2x2048.Slices ![0, 0, 13] S256x2x2028
  concatenates_S256x2x10_S256x2x2028_S256x2x2038_d2 : Shape.Concatenates [S256x2x10, S256x2x2028] S256x2x2038 2
  concatenates_S256x2x2038_S256x2x10_S256x2x2048_d2 : Shape.Concatenates [S256x2x2038, S256x2x10] S256x2x2048 2
  slices_S256x2x2048_o0_0_0_S256x1x2048 : S256x2x2048.Slices ![0, 0, 0] S256x1x2048
  shapeCasts_S256x1x2048_S256x2048 : S256x1x2048.ShapeCasts S256x2048
  slices_S256x2x2048_o0_1_0_S256x1x2048 : S256x2x2048.Slices ![0, 1, 0] S256x1x2048
  shapeCasts_S256x2048_S256x1x2048 : S256x2048.ShapeCasts S256x1x2048
  concatenates_S256x1x2048_S256x1x2048_S256x2x2048_d1 : Shape.Concatenates [S256x1x2048, S256x1x2048] S256x2x2048 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2x2048.size a ≤ S16384x2x2048.size a
  hwx0_0 : ∀ i : grid0.Coords, EltTy.bits .f32 = 32 ∨ (Rect.block (s := S16384x2x2048) S256x2x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2x2048.size a ≤ S16384x2x2048.size a
  hwx0_1 : ∀ i : grid0.Coords, EltTy.bits .f32 = 32 ∨ (Rect.block (s := S16384x2x2048) S256x2x2048.size (cc0_transform_1 i) (hinb0_1 i)).WholeWords (EltTy.packing .f32)

variable [Facts₀]

abbrev win0_0 : Pipeline.Window sig grid0 :=
  Pipeline.Window.ofSpec (Memref.whole main_arg0) S256x2x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x2x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x2x2048 : Shape := ⟨3, ![16384, 2, 2048]⟩
abbrev S16384x2x2028 : Shape := ⟨3, ![16384, 2, 2028]⟩
abbrev S_ : Shape := ⟨0, ![]⟩
abbrev S16384x1x2048 : Shape := ⟨3, ![16384, 1, 2048]⟩
abbrev S16384x2048 : Shape := ⟨2, ![16384, 2048]⟩

abbrev nBuf : Space → Nat
  | .hbm => 57
  | .vmem => 0
  | .smem => 0
  | _ => 0

abbrev bufTy : (tb : Table) → Fin (tcTables nBuf tb) → BufTy
  | .hbm, ⟨0, _⟩ => ⟨S16384x2x2048, .f32⟩
  | .hbm, ⟨1, _⟩ => ⟨S16384x2x2028, .f32⟩
  | .hbm, ⟨2, _⟩ => ⟨S16384x2x2028, .f32⟩
  | .hbm, ⟨3, _⟩ => ⟨S16384x2x2028, .f32⟩
  | .hbm, ⟨4, _⟩ => ⟨S_, .f32⟩
  | .hbm, ⟨5, _⟩ => ⟨S16384x2x2028, .f32⟩
  | .hbm, ⟨6, _⟩ => ⟨S16384x2x2028, .f32⟩
  | .hbm, ⟨7, _⟩ => ⟨S16384x2x2028, .f32⟩
  | .hbm, ⟨8, _⟩ => ⟨S16384x2x2028, .f32⟩
  | .hbm, ⟨9, _⟩ => ⟨S_, .f32⟩
  | .hbm, ⟨10, _⟩ => ⟨S16384x2x2028, .f32⟩
  | .hbm, ⟨11, _⟩ => ⟨S16384x2x2028, .f32⟩
  | .hbm, ⟨12, _⟩ => ⟨S16384x2x2028, .f32⟩
  | .hbm, ⟨13, _⟩ => ⟨S16384x2x2028, .f32⟩
  | .hbm, ⟨14, _⟩ => ⟨S_, .f32⟩
  | .hbm, ⟨15, _⟩ => ⟨S16384x2x2028, .f32⟩
  | .hbm, ⟨16, _⟩ => ⟨S16384x2x2028, .f32⟩
  | .hbm, ⟨17, _⟩ => ⟨S16384x2x2028, .f32⟩
  | .hbm, ⟨18, _⟩ => ⟨S16384x2x2028, .f32⟩
  | .hbm, ⟨19, _⟩ => ⟨S_, .f32⟩
  | .hbm, ⟨20, _⟩ => ⟨S16384x2x2028, .f32⟩
  | .hbm, ⟨21, _⟩ => ⟨S16384x2x2028, .f32⟩
  | .hbm, ⟨22, _⟩ => ⟨S16384x2x2028, .f32⟩
  | .hbm, ⟨23, _⟩ => ⟨S16384x2x2028, .f32⟩
  | .hbm, ⟨24, _⟩ => ⟨S16384x2x2028, .f32⟩
  | .hbm, ⟨25, _⟩ => ⟨S_, .f32⟩
  | .hbm, ⟨26, _⟩ => ⟨S16384x2x2028, .f32⟩
  | .hbm, ⟨27, _⟩ => ⟨S16384x2x2028, .f32⟩
  | .hbm, ⟨28, _⟩ => ⟨S_, .i32⟩
  | .hbm, ⟨29, _⟩ => ⟨S_, .f32⟩
  | .hbm, ⟨30, _⟩ => ⟨S16384x2x2048, .f32⟩
  | .hbm, ⟨31, _⟩ => ⟨S16384x1x2048, .f32⟩
  | .hbm, ⟨32, _⟩ => ⟨S16384x2048, .f32⟩
  | .hbm, ⟨33, _⟩ => ⟨S16384x1x2048, .f32⟩
  | .hbm, ⟨34, _⟩ => ⟨S16384x2048, .f32⟩
  | .hbm, ⟨35, _⟩ => ⟨S16384x2048, .f32⟩
  | .hbm, ⟨36, _⟩ => ⟨S16384x1x2048, .f32⟩
  | .hbm, ⟨37, _⟩ => ⟨S16384x2048, .f32⟩
  | .hbm, ⟨38, _⟩ => ⟨S16384x1x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S16384x1x2048, .f32⟩
  | .hbm, ⟨43, _⟩ => ⟨S16384x2048, .f32⟩
  | .hbm, ⟨44, _⟩ => ⟨S_, .f32⟩
  | .hbm, ⟨45, _⟩ => ⟨S16384x2048, .f32⟩
  | .hbm, ⟨46, _⟩ => ⟨S16384x2048, .f32⟩
  | .hbm, ⟨47, _⟩ => ⟨S16384x1x2048, .f32⟩
  | .hbm, ⟨48, _⟩ => ⟨S16384x2048, .f32⟩
  | .hbm, ⟨49, _⟩ => ⟨S16384x1x2048, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S16384x1x2048, .f32⟩
  | .hbm, ⟨54, _⟩ => ⟨S16384x1x2048, .f32⟩
  | .hbm, ⟨55, _⟩ => ⟨S16384x2x2048, .f32⟩
  | .hbm, ⟨56, _⟩ => ⟨S16384x2x2048, .f32⟩
  | _, _ => ⟨S16384x2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]

class Facts₀ : Prop where
  slices_S16384x2x2048_S16384x2x2028_0_0_7 : S16384x2x2048.Slices ![0, 0, 7] S16384x2x2028
  slices_S16384x2x2048_S16384x2x2028_0_0_8 : S16384x2x2048.Slices ![0, 0, 8] S16384x2x2028
  bcast_S_S16384x2x2028 : S_.BroadcastsInDim S16384x2x2028 (![] : Fin 0 → Fin S16384x2x2028.rank)
  slices_S16384x2x2048_S16384x2x2028_0_0_9 : S16384x2x2048.Slices ![0, 0, 9] S16384x2x2028
  slices_S16384x2x2048_S16384x2x2028_0_0_11 : S16384x2x2048.Slices ![0, 0, 11] S16384x2x2028
  slices_S16384x2x2048_S16384x2x2028_0_0_12 : S16384x2x2048.Slices ![0, 0, 12] S16384x2x2028
  slices_S16384x2x2048_S16384x2x2028_0_0_13 : S16384x2x2048.Slices ![0, 0, 13] S16384x2x2028
  pads_S16384x2x2028_S16384x2x2048_000_000_10100 : S16384x2x2028.Pads (![0, 0, 10] : Fin 3 → Nat) ![0, 0, 10] ![0, 0, 0] S16384x2x2048
  h_S_ : 0 < S_.numel
  slices_S16384x2x2048_S16384x1x2048_0_1_0 : S16384x2x2048.Slices ![0, 1, 0] S16384x1x2048
  shapeCasts_S16384x1x2048_S16384x2048 : S16384x1x2048.ShapeCasts S16384x2048
  slices_S16384x2x2048_S16384x1x2048_0_0_0 : S16384x2x2048.Slices ![0, 0, 0] S16384x1x2048
  bcast_S_S16384x2048 : S_.BroadcastsInDim S16384x2048 (![] : Fin 0 → Fin S16384x2048.rank)
  bcast_S16384x2048_S16384x1x2048_0_2 : S16384x2048.BroadcastsInDim S16384x1x2048 (![0, 2] : Fin 2 → Fin S16384x1x2048.rank)
  concatenates_S16384x1x2048_S16384x1x2048_S16384x2x2048_d1 : Shape.Concatenates [S16384x1x2048, S16384x1x2048] S16384x2x2048 1

variable [Facts₀]

class Facts : Prop extends Facts₀ where

variable [Facts]
-- ==== Proof.LibRank3Rows.lean ====
/-
  Layout operations on a rank-3 array [m, c, n] read at the index with coordinates (r, ch, j), for any extents and any
  element type: a window of the last axis starting at offset k reads (r, ch, k + q); a window of the middle axis reads
  (r, k + u, j); the casts [m, 1, n] <-> [m, n] and the broadcast [m, n] -> [m, 1, n] keep the row and the column; two
  arrays laid side by side along the middle or the last axis read the piece that holds the coordinate; an array padded
  along its last axis reads the array inside the padding and the padding value outside; a scalar broadcast to a rank-2
  or rank-3 shape reads the scalar. Each is the library's lemma for the operation with the operand index written out by coordinates.
-/
import Idealize.ShloMosaic.Lib.ValueIdx
import Idealize.ShloMosaic.Lib.Pipeline.Value
import Idealize.ShloMosaic.Lib.KernelVsHost

noncomputable section

namespace Cert.Lib.Rank3Rows

open Idealize.ShloMosaic Idealize.ShloMosaic.ValueIdx

variable {α : Type}

/-! ## Windows (unit-stride slices) -/

/-- A window of the last axis lies inside it: offset plus a coordinate of the window is below the operand's extent. -/
theorem slice_last_lt {m c n n' k : Nat}
    (h : (⟨3, ![m, c, n]⟩ : Shape).Slices ![0, 0, k] ⟨3, ![m, c, n']⟩) (q : Fin n') : k + q.val < n := by
  obtain ⟨_, hb⟩ := h
  have h2 := hb ⟨2, (by show 2 < 3; decide)⟩
  have hq := q.isLt
  change k + n' ≤ n at h2
  omega

/-- A window of the last axis at offset k, read at (r, ch, q), is the operand at (r, ch, k + q). -/
theorem slice_last_apply {m c n n' k : Nat} (x : (⟨3, ![m, c, n]⟩ : Shape).Idx → α)
    (h : (⟨3, ![m, c, n]⟩ : Shape).Slices ![0, 0, k] ⟨3, ![m, c, n']⟩) (r : Fin m) (ch : Fin c) (q : Fin n') :
    extractStridedSlice (⟨3, ![m, c, n']⟩ : Shape) ![0, 0, k] x h (ix3 r ch q)
      = x (ix3 r ch ⟨k + q.val, slice_last_lt h q⟩) :=
  extractStridedSlice_apply ![0, 0, k] x h (ix3 r ch q) (ix3 r ch ⟨k + q.val, slice_last_lt h q⟩) fun a => by
    match a with
    | ⟨0, _⟩ => show r.val = 0 + r.val; omega
    | ⟨1, _⟩ => show ch.val = 0 + ch.val; omega
    | ⟨2, _⟩ => show k + q.val = k + q.val; rfl

/-- A window of the middle axis lies inside it. -/
theorem slice_mid_lt {m c c' n k : Nat}
    (h : (⟨3, ![m, c, n]⟩ : Shape).Slices ![0, k, 0] ⟨3, ![m, c', n]⟩) (u : Fin c') : k + u.val < c := by
  obtain ⟨_, hb⟩ := h
  have h1 := hb ⟨1, (by show 1 < 3; decide)⟩
  have hu := u.isLt
  change k + c' ≤ c at h1
  omega

/-- A window of the middle axis at offset k, read at (r, u, j), is the operand at (r, k + u, j). -/
theorem slice_mid_apply {m c c' n k : Nat} (x : (⟨3, ![m, c, n]⟩ : Shape).Idx → α)
    (h : (⟨3, ![m, c, n]⟩ : Shape).Slices ![0, k, 0] ⟨3, ![m, c', n]⟩) (r : Fin m) (u : Fin c') (j : Fin n) :
    extractStridedSlice (⟨3, ![m, c', n]⟩ : Shape) ![0, k, 0] x h (ix3 r u j)
      = x (ix3 r ⟨k + u.val, slice_mid_lt h u⟩ j) :=
  extractStridedSlice_apply ![0, k, 0] x h (ix3 r u j) (ix3 r ⟨k + u.val, slice_mid_lt h u⟩ j) fun a => by
    match a with
    | ⟨0, _⟩ => show r.val = 0 + r.val; omega
    | ⟨1, _⟩ => show k + u.val = k + u.val; rfl
    | ⟨2, _⟩ => show j.val = 0 + j.val; omega

/-! ## The unit middle axis dropped, added back, and added by a broadcast -/

/-- [m, 1, n] viewed as [m, n], read at (r, j), is the operand at (r, 0, j). -/
theorem cast_drop_mid_apply {m n : Nat} (y : (⟨3, ![m, 1, n]⟩ : Shape).Idx → α)
    (h : (⟨3, ![m, 1, n]⟩ : Shape).ShapeCasts ⟨2, ![m, n]⟩) (r : Fin m) (j : Fin n) :
    shapeCast (⟨2, ![m, n]⟩ : Shape) y h (ix2 r j) = y (ix3 r (0 : Fin 1) j) :=
  shapeCast_apply y h (ix2 r j) (ix3 r 0 j) (by
    rw [Shape.rowMajor_val_three, Shape.rowMajor_val_two]
    show (r.val * 1 + 0) * n + j.val = r.val * n + j.val
    simp)

/-- [m, n] viewed as [m, 1, n], read at (r, u, j), is the operand at (r, j). -/
theorem cast_add_mid_apply {m n : Nat} (y : (⟨2, ![m, n]⟩ : Shape).Idx → α)
    (h : (⟨2, ![m, n]⟩ : Shape).ShapeCasts ⟨3, ![m, 1, n]⟩) (r : Fin m) (u : Fin 1) (j : Fin n) :
    shapeCast (⟨3, ![m, 1, n]⟩ : Shape) y h (ix3 r u j) = y (ix2 r j) :=
  shapeCast_apply y h (ix3 r u j) (ix2 r j) (by
    rw [Shape.rowMajor_val_three, Shape.rowMajor_val_two]
    show r.val * n + j.val = (r.val * 1 + u.val) * n + j.val
    have hu : u.val = 0 := by have := u.isLt; omega
    simp [hu])

/-- [m, n] broadcast to [m, 1, n] along the axes (0, 2), read at (r, u, j), is the operand at (r, j). -/
theorem bcast_add_mid_apply {m n : Nat} (y : (⟨2, ![m, n]⟩ : Shape).Idx → α)
    (h : (⟨2, ![m, n]⟩ : Shape).BroadcastsInDim ⟨3, ![m, 1, n]⟩ (![0, 2] : Fin 2 → Fin 3))
    (r : Fin m) (u : Fin 1) (j : Fin n) :
    broadcastInDim (⟨3, ![m, 1, n]⟩ : Shape) (![0, 2] : Fin 2 → Fin 3) h y (ix3 r u j) = y (ix2 r j) :=
  broadcastInDim_apply (![0, 2] : Fin 2 → Fin 3) h y (ix3 r u j) (ix2 r j) fun a => by
    match a with
    | ⟨0, _⟩ =>
      show r.val = if m = 1 then 0 else r.val
      have := r.isLt
      split <;> omega
    | ⟨1, _⟩ =>
      show j.val = if n = 1 then 0 else j.val
      have := j.isLt
      split <;> omega

/-- A scalar broadcast to a rank-3 shape reads the scalar. -/
theorem bcast_scalar3_apply {a b c : Nat} (y : (⟨0, ![]⟩ : Shape).Idx → α)
    (h : (⟨0, ![]⟩ : Shape).BroadcastsInDim ⟨3, ![a, b, c]⟩ (![] : Fin 0 → Fin 3)) (i : (⟨3, ![a, b, c]⟩ : Shape).Idx) :
    broadcastInDim (⟨3, ![a, b, c]⟩ : Shape) (![] : Fin 0 → Fin 3) h y i = y ix0 :=
  broadcastInDim_apply (![] : Fin 0 → Fin 3) h y i ix0 fun a => a.elim0

/-- A scalar broadcast to a rank-2 shape reads the scalar. -/
theorem bcast_scalar2_apply {a b : Nat} (y : (⟨0, ![]⟩ : Shape).Idx → α)
    (h : (⟨0, ![]⟩ : Shape).BroadcastsInDim ⟨2, ![a, b]⟩ (![] : Fin 0 → Fin 2)) (i : (⟨2, ![a, b]⟩ : Shape).Idx) :
    broadcastInDim (⟨2, ![a, b]⟩ : Shape) (![] : Fin 0 → Fin 2) h y i = y ix0 :=
  broadcastInDim_apply (![] : Fin 0 → Fin 2) h y i ix0 fun a => a.elim0

/-! ## Two arrays side by side -/

/-- Two [m, 1, n] arrays stacked along the middle axis, read at (r, ch, j): the first at (r, 0, j) when ch = 0, the
    second there otherwise. -/
theorem concat_mid_apply {m n : Nat} (y0 y1 : (⟨3, ![m, 1, n]⟩ : Shape).Idx → α)
    (h : Shape.Concatenates [(⟨3, ![m, 1, n]⟩ : Shape), ⟨3, ![m, 1, n]⟩] ⟨3, ![m, 2, n]⟩ 1)
    (r : Fin m) (ch : Fin 2) (j : Fin n) :
    concatenate (⟨3, ![m, 2, n]⟩ : Shape) 1 [⟨⟨3, ![m, 1, n]⟩, y0⟩, ⟨⟨3, ![m, 1, n]⟩, y1⟩] h (ix3 r ch j)
      = if ch.val = 0 then y0 (ix3 r (0 : Fin 1) j) else y1 (ix3 r (0 : Fin 1) j) := by
  by_cases hc : ch.val = 0
  · rw [if_pos hc]
    exact concatenate_pair_apply_left 1 y0 y1 h (ix3 r ch j) rfl (ix3 r 0 j) fun b => by
      match b with
      | ⟨0, _⟩ => rfl
      | ⟨1, _⟩ => show (0 : Nat) = ch.val; omega
      | ⟨2, _⟩ => rfl
  · rw [if_neg hc]
    have hch := ch.isLt
    exact concatenate_pair_apply_right 1 y0 y1 h (ix3 r ch j) rfl rfl (ix3 r 0 j)
      (fun b hb => by
        match b with
        | ⟨0, _⟩ => rfl
        | ⟨1, _⟩ => exact absurd rfl hb
        | ⟨2, _⟩ => rfl)
      (by show 0 + 1 = ch.val; omega)

/-- The second of two pieces joined along the last axis holds the coordinates at or past the first piece's extent. -/
theorem concat_last_lt {m c n1 n2 n : Nat}
    (h : Shape.Concatenates [(⟨3, ![m, c, n1]⟩ : Shape), ⟨3, ![m, c, n2]⟩] ⟨3, ![m, c, n]⟩ 2)
    (j : Fin n) (hj : ¬ j.val < n1) : j.val - n1 < n2 := by
  have e := h.2.2
  have hj' := j.isLt
  simp only [List.map, List.sum_cons, List.sum_nil] at e
  change n1 + (n2 + 0) = n at e
  omega

/-- Two arrays [m, c, n1] and [m, c, n2] joined along the last axis, read at (r, ch, j): the first at (r, ch, j) when
    j < n1, the second at (r, ch, j - n1) otherwise. -/
theorem concat_last_apply {m c n1 n2 n : Nat} (y1 : (⟨3, ![m, c, n1]⟩ : Shape).Idx → α)
    (y2 : (⟨3, ![m, c, n2]⟩ : Shape).Idx → α)
    (h : Shape.Concatenates [(⟨3, ![m, c, n1]⟩ : Shape), ⟨3, ![m, c, n2]⟩] ⟨3, ![m, c, n]⟩ 2)
    (r : Fin m) (ch : Fin c) (j : Fin n) :
    concatenate (⟨3, ![m, c, n]⟩ : Shape) 2 [⟨⟨3, ![m, c, n1]⟩, y1⟩, ⟨⟨3, ![m, c, n2]⟩, y2⟩] h (ix3 r ch j)
      = if hj : j.val < n1 then y1 (ix3 r ch ⟨j.val, hj⟩) else y2 (ix3 r ch ⟨j.val - n1, concat_last_lt h j hj⟩) := by
  by_cases hj : j.val < n1
  · rw [dif_pos hj]
    exact concatenate_pair_apply_left 2 y1 y2 h (ix3 r ch j) rfl (ix3 r ch ⟨j.val, hj⟩) fun b => by
      match b with
      | ⟨0, _⟩ => rfl
      | ⟨1, _⟩ => rfl
      | ⟨2, _⟩ => rfl
  · rw [dif_neg hj]
    exact concatenate_pair_apply_right 2 y1 y2 h (ix3 r ch j) rfl rfl (ix3 r ch ⟨j.val - n1, concat_last_lt h j hj⟩)
      (fun b hb => by
        match b with
        | ⟨0, _⟩ => rfl
        | ⟨1, _⟩ => rfl
        | ⟨2, _⟩ => exact absurd rfl hb)
      (by show j.val - n1 + n1 = j.val; omega)

/-! ## Padding along the last axis -/

/-- Inside the padding of the last axis sits the operand: a coordinate j with lo ≤ j < lo + n is at j - lo of it. -/
theorem pad_last_lt {n lo : Nat} {j : Nat} (hj : lo ≤ j ∧ j < lo + n) : j - lo < n := by omega

/-- An array [m, c, n] padded by lo before and hi after along its last axis (nothing between its entries), read at
    (r, ch, j): the array at (r, ch, j - lo) when lo ≤ j < lo + n, the padding value otherwise. -/
theorem pad_last_apply {m c n lo hi n' : Nat} (x : (⟨3, ![m, c, n]⟩ : Shape).Idx → α) {u : Shape} (v : u.Idx → α)
    (h : (⟨3, ![m, c, n]⟩ : Shape).Pads ![0, 0, lo] ![0, 0, hi] ![0, 0, 0] ⟨3, ![m, c, n']⟩) (hu : 0 < u.numel)
    (r : Fin m) (ch : Fin c) (j : Fin n') :
    pad (⟨3, ![m, c, n']⟩ : Shape) ![0, 0, lo] ![0, 0, hi] ![0, 0, 0] x v h hu (ix3 r ch j)
      = if hj : lo ≤ j.val ∧ j.val < lo + n then x (ix3 r ch ⟨j.val - lo, pad_last_lt hj⟩)
        else v (Shape.Idx.first hu) := by
  by_cases hj : lo ≤ j.val ∧ j.val < lo + n
  · rw [dif_pos hj]
    exact pad_apply_of_inside ![0, 0, lo] ![0, 0, hi] ![0, 0, 0] x v h hu (ix3 r ch j)
      (ix3 r ch ⟨j.val - lo, pad_last_lt hj⟩) fun a => by
        match a with
        | ⟨0, _⟩ => show r.val = 0 + r.val * (0 + 1); omega
        | ⟨1, _⟩ => show ch.val = 0 + ch.val * (0 + 1); omega
        | ⟨2, _⟩ => show j.val = lo + (j.val - lo) * (0 + 1); omega
  · rw [dif_neg hj]
    exact pad_apply_of_not_inside ![0, 0, lo] ![0, 0, hi] ![0, 0, 0] x v h hu (ix3 r ch j) ⟨2, (by show 2 < 3; decide)⟩ (by
      show ¬(lo ≤ j.val ∧ (j.val - lo) % (0 + 1) = 0 ∧ (j.val - lo) / (0 + 1) < n)
      intro hin
      apply hj
      have h1 := hin.1
      have h3 := hin.2.2
      rw [Nat.div_one] at h3
      omega)

end Cert.Lib.Rank3Rows

end
-- ==== Proof.Spec.lean ====
/-
  The advection step both programs compute, one row pair at a time.

  A row pair is two rows u0, u1 of 2048 entries (the two channels). Along each row, a six-point central difference
  with weights (-1, 9, -45, 45, -9, 1) at the offsets (-3, -2, -1, +1, +2, +3), scaled by c, is taken at the 2028
  interior positions 10 ≤ j < 2038; the ten positions at either end hold the padding value. With d0, d1 the padded
  differences of the two rows, the result is

      channel 0 :  -(u1 · d0 + u0 · d1)
      channel 1 :  -(2 · d0 + u1 · d1).

  The weights, the scale c and the factor 2 are kept as the float words both programs carry (the same word on both
  sides is never evaluated); the padding value is the integer zero converted. Everything is on the extended reals, and
  the order of the sums is the order both programs use, so no law of arithmetic is needed to join the two sides beyond
  0 - a = -a.
-/
import Idealize.ShloMosaic.PureOps.Ideal
import Idealize.ShloMosaic.PureOps.Ideal.Laws
import Idealize.ShloMosaic.Lib.ValueIdx

noncomputable section

namespace Cert.Advect

open Idealize.ShloMosaic Idealize.ShloMosaic.ValueIdx

/-- The weight 9. -/
abbrev w9 : EReal := Ideal.ofBits .f32 0x41100000#32
/-- The weight 45. -/
abbrev w45 : EReal := Ideal.ofBits .f32 0x42340000#32
/-- The scale c = 1 / (60 · dx), as the one float word both programs hold. -/
abbrev wc : EReal := Ideal.ofBits .f32 0x3FB1C71C#32
/-- The factor 2 of the second channel. -/
abbrev w2 : EReal := Ideal.ofBits .f32 0x40000000#32
/-- The padding value: the integer zero, converted. -/
abbrev z0 : EReal := (((0#32 : BitVec 32).toInt : ℝ) : EReal)

/-- The six-point difference of a row at interior position q (array position 10 + q): entries 7 + q … 13 + q without
    the middle one, summed left to right, times c. -/
def diff6 (a : Fin 2048 → EReal) (q : Fin 2028) : EReal :=
  (((((-(a ⟨7 + q.val, by have := q.isLt; omega⟩) + w9 * a ⟨8 + q.val, by have := q.isLt; omega⟩)
        - w45 * a ⟨9 + q.val, by have := q.isLt; omega⟩)
        + w45 * a ⟨11 + q.val, by have := q.isLt; omega⟩)
        - w9 * a ⟨12 + q.val, by have := q.isLt; omega⟩)
        + a ⟨13 + q.val, by have := q.isLt; omega⟩) * wc

/-- The difference padded to the row's length: the padding value on the ten positions at either end. -/
def dpad (a : Fin 2048 → EReal) (j : Fin 2048) : EReal :=
  if hj : 10 ≤ j.val ∧ j.val < 2038 then diff6 a ⟨j.val - 10, by omega⟩ else z0

/-- The two output channels of a row pair at position j. -/
def advect (u0 u1 : Fin 2048 → EReal) (ch : Fin 2) (j : Fin 2048) : EReal :=
  -(if ch.val = 0 then u1 j * dpad u0 j + u0 j * dpad u1 j else w2 * dpad u0 j + u1 j * dpad u1 j)

/-- The step on an array of m row pairs [m, 2, 2048]: row pair r, channel ch, position j. -/
def rows {m : Nat} (x : (⟨3, ![m, 2, 2048]⟩ : Shape).Idx → EReal) (r : Fin m) (ch : Fin 2) (j : Fin 2048) : EReal :=
  advect (fun j' => x (ix3 r (0 : Fin 2) j')) (fun j' => x (ix3 r (1 : Fin 2) j')) ch j

/-- The step on the whole array of 16384 row pairs: entry i of the result is the step of row pair i₀ at channel i₁ and
    position i₂. Both programs' result arrays are this function of the argument array. -/
def G (u : (⟨3, ![16384, 2, 2048]⟩ : Shape).Idx → EReal) : (⟨3, ![16384, 2, 2048]⟩ : Shape).Idx → EReal :=
  fun i => rows u ⟨(i 0).val, (i 0).isLt⟩ ⟨(i 1).val, (i 1).isLt⟩ ⟨(i 2).val, (i 2).isLt⟩

/-- At an entry given by its coordinates. -/
theorem G_ix3 (u : (⟨3, ![16384, 2, 2048]⟩ : Shape).Idx → EReal) (R : Fin 16384) (ch : Fin 2) (j : Fin 2048) :
    G u (ix3 R ch j) = rows u R ch j := rfl

/-- At any entry whose coordinates are known. -/
theorem G_apply (u : (⟨3, ![16384, 2, 2048]⟩ : Shape).Idx → EReal) (i : (⟨3, ![16384, 2, 2048]⟩ : Shape).Idx)
    (R : Fin 16384) (ch : Fin 2) (j : Fin 2048)
    (h0 : (i 0).val = R.val) (h1 : (i 1).val = ch.val) (h2 : (i 2).val = j.val) : G u i = rows u R ch j := by
  have e : i = ix3 R ch j := funext fun a => Fin.ext (by
    match a with
    | ⟨0, _⟩ => exact h0
    | ⟨1, _⟩ => exact h1
    | ⟨2, _⟩ => exact h2)
  rw [e]
  rfl

/-- The padded difference as two joins see it: below 2038 either in the leading padding (below 10) or interior, and
    the trailing padding from 2038 on. -/
theorem dpad_eq_joined (a : Fin 2048 → EReal) (j : Fin 2048) :
    dpad a j = if hj : j.val < 2038 then
        (if hj' : j.val < 10 then z0 else diff6 a ⟨j.val - 10, by omega⟩)
      else z0 := by
  unfold dpad
  by_cases h2 : j.val < 2038
  · by_cases h1 : j.val < 10
    · rw [dif_neg (by omega), dif_pos h2, dif_pos h1]
    · rw [dif_pos ⟨by omega, h2⟩, dif_pos h2, dif_neg h1]
  · rw [dif_neg (by omega), dif_neg h2]

/-- Subtracting from the zero word is negation. -/
theorem zero_word_sub (a : EReal) : Ideal.ofBits .f32 0x00000000#32 - a = -a := by
  rw [Ideal.ofBits_zero_f32, zero_sub]

end Cert.Advect

end
-- ==== Proof.KernelRow.lean ====
/-
  What one grid step stores, entry by entry: the block of 256 row pairs the step has loaded, run through the body's
  arithmetic, is the advection step of each row pair of the block.

  The body takes six windows of the block along the row (offsets 7 … 13 without 10), combines them with the weights
  and the scale, joins ten padding entries in front and ten behind, splits the block and the padded difference into
  their two channels, forms the two products-and-sums, stacks them and subtracts the stack from zero. Read at one entry
  (r, ch, j) each of these is the operand at one entry, so the whole is the specification's formula on row pair r.
-/
import proofs.«117995_j8787503087639_1_alg».proof.Proof.Gen.KernelIdeal.Skeleton
import proofs.«117995_j8787503087639_1_alg».proof.Proof.LibRank3Rows
import proofs.«117995_j8787503087639_1_alg».proof.Proof.Spec

set_option maxRecDepth 16384

noncomputable section

namespace Cert.Advect

open Idealize.ShloMosaic Idealize.ShloMosaic.ValueIdx Cert.KernelIdeal Cert.KernelIdeal.Gen Cert.Lib.Rank3Rows

/-- The value one grid step stores at entry (r, ch, j) of its block is the advection step of row pair r of the block
    it loaded, at channel ch and position j. -/
theorem payload_apply (x : Vec Ideal S256x2x2048 .f32) (r : Fin 256) (ch : Fin 2) (j : Fin 2048) :
    k0_pay1 (F := Ideal) (k0_pay2 x) (Scalar.ofBits .f32 0x00000000#32) (ix3 r ch j) = rows x r ch j := by
  unfold k0_pay1 k0_pay2
  simp only [subf_apply, addf_apply, mulf_apply, broadcast_apply, concat_mid_apply, cast_add_mid_apply,
    cast_drop_mid_apply, slice_mid_apply, concat_last_apply, slice_last_apply]
  unfold rows advect
  simp only [dpad_eq_joined]
  unfold diff6
  simp only [Ideal.ofBits_def, zero_word_sub]
  rfl

end Cert.Advect

end
-- ==== Proof.Blocks.lean ====
/-
  From what each grid step stores to the whole result array.

  The result array [16384, 2, 2048] is cut into 64 blocks of 256 row pairs; step t loads block t of the argument and
  stores block t of the result, every step writes its block back, and the 64 blocks tile the array (row pair i lies in
  block i / 256). A step's stored block is the advection step of the row pairs it loaded, and the step is taken row
  pair by row pair, so block t of the result is block t of the whole-array function G of the argument; the blocks
  covering the array, the array ends holding G of the argument.
-/
import proofs.«117995_j8787503087639_1_alg».proof.Proof.Gen.KernelIdeal.Value
import proofs.«117995_j8787503087639_1_alg».proof.Proof.KernelRow

set_option maxRecDepth 16384

noncomputable section

namespace Cert.Advect

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The zero offsets of the body's one load and one store, as a constant function. -/
theorem zero_offsets : (![0, 0, 0] : Fin 3 → Nat) = fun _ => 0 := funext fun a => by fin_cases a <;> rfl

/-- The two windows' index maps over the 64 steps: step t has block index (t, 0, 0) in the argument and in the result. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0)

/-- There are 64 steps. -/
theorem step_lt (t : Fin cfg0.N) : t.val < 64 := lt_of_lt_of_eq t.isLt N_0

/-- What step t writes back is block t of G of the argument array: entry (r, ch, j) of the stored block is the step of
    row pair r of the loaded block, which is row pair 256 t + r of the argument, and the result's block t sits at the
    same rows. -/
theorem flushed_eq (c : Dev nD) (t : Fin cfg0.N) :
    (dats m 0 c).flushed 1 t = ((cfg0.win 1).blk t).view.read (Elt Ideal) (G (V m c main_arg0)) := by
  rw [Cert.KernelIdeal.Value.flushed1]
  unfold out0_1
  rw [View.canon_unit_zero zero_offsets]
  simp only [View.ld_unit_zero (S := S256x2x2048) zero_offsets]
  obtain ⟨e0, e1, e2, e3, e4, e5⟩ := block_index t
  have ht := step_lt t
  funext y
  obtain ⟨r, ch, j, rfl⟩ : ∃ (r : Fin 256) (ch : Fin 2) (j : Fin 2048), y = ix3 r ch j := ⟨y 0, y 1, y 2, eq_ix3 y⟩
  show k0_pay1 (F := Ideal) (k0_pay2 (iblk m c 0 t)) (Scalar.ofBits .f32 0x00000000#32) (ix3 r ch j)
      = G (V m c main_arg0) (((cfg0.win 1).blk t).view.emb (ix3 r ch j))
  refine (payload_apply (iblk m c 0 t) r ch j).trans ?_
  -- the row pair of the argument that row pair r of block t is
  have hR : t.val * 256 + r.val < 16384 := by have := r.isLt; omega
  have hblk : ∀ (k : Fin 2) (j' : Fin 2048),
      iblk m c 0 t (ix3 r k j') = V m c main_arg0 (ix3 (⟨t.val * 256 + r.val, hR⟩ : Fin 16384) k j') := by
    intro k j'
    show V m c main_arg0 (((cfg0.win 0).blk t).view.emb (ix3 r k j')) = _
    refine congrArg (V m c main_arg0) (funext fun a => Fin.ext ?_)
    match a with
    | ⟨0, _⟩ => show win0_0.index t (0 : Fin 3) * 256 + 1 * r.val = t.val * 256 + r.val; omega
    | ⟨1, _⟩ => show win0_0.index t (1 : Fin 3) * 2 + 1 * k.val = k.val; omega
    | ⟨2, _⟩ => show win0_0.index t (2 : Fin 3) * 2048 + 1 * j'.val = j'.val; omega
  have hG : G (V m c main_arg0) (((cfg0.win 1).blk t).view.emb (ix3 r ch j))
      = rows (V m c main_arg0) (⟨t.val * 256 + r.val, hR⟩ : Fin 16384) ch j :=
    G_apply (V m c main_arg0) (((cfg0.win 1).blk t).view.emb (ix3 r ch j)) ⟨t.val * 256 + r.val, hR⟩ ch j
      (by show win0_1.index t (0 : Fin 3) * 256 + 1 * r.val = t.val * 256 + r.val; omega)
      (by show win0_1.index t (1 : Fin 3) * 2 + 1 * ch.val = ch.val; omega)
      (by show win0_1.index t (2 : Fin 3) * 2048 + 1 * j.val = j.val; omega)
  refine Eq.trans ?_ hG.symm
  exact congrArg₂ (fun a b => advect a b ch j) (funext (hblk 0)) (funext (hblk 1))

/-- An entry of the result array is in step t's block iff each coordinate is in the block's range on its axis. -/
theorem mem_block (t : Fin cfg0.N) (i : S16384x2x2048.Idx) :
    i ∈ ((cfg0.win 1).blk t).view.set ↔ ∀ a : Fin 3, win0_1.index t a * S256x2x2048.size a ≤ (i a).val
      ∧ (i a).val < win0_1.index t a * S256x2x2048.size a + S256x2x2048.size a := by
  show i ∈ ((View.whole main_v0).slice (win0_1.rect t)).set ↔ _
  rw [View.set_slice_whole, Rect.mem_set_unit]
  exact Iff.rfl

/-- Every entry of the result array is in some step's block: row pair i₀ is in block i₀ / 256. -/
theorem covered (i : S16384x2x2048.Idx) :
    ∃ t : Fin cfg0.N, (cfg0.win 1).flush t = true ∧ i ∈ ((cfg0.win 1).blk t).view.set := by
  have h0 : (i 0).val < 16384 := (i 0).isLt
  have h1 : (i 1).val < 2 := (i 1).isLt
  have h2 : (i 2).val < 2048 := (i 2).isLt
  have hN : (i 0).val / 256 < cfg0.N := by rw [show cfg0.N = 64 from N_0]; omega
  obtain ⟨-, -, -, e3, e4, e5⟩ := block_index ⟨(i 0).val / 256, hN⟩
  have e3' : win0_1.index ⟨(i 0).val / 256, hN⟩ (0 : Fin 3) = (i 0).val / 256 := e3
  refine ⟨⟨(i 0).val / 256, hN⟩, flush0_1 _, ?_⟩
  rw [mem_block]
  intro a
  match a with
  | ⟨0, _⟩ =>
    show win0_1.index ⟨(i 0).val / 256, hN⟩ (0 : Fin 3) * 256 ≤ (i 0).val
      ∧ (i 0).val < win0_1.index ⟨(i 0).val / 256, hN⟩ (0 : Fin 3) * 256 + 256
    omega
  | ⟨1, _⟩ =>
    show win0_1.index ⟨(i 0).val / 256, hN⟩ (1 : Fin 3) * 2 ≤ (i 1).val
      ∧ (i 1).val < win0_1.index ⟨(i 0).val / 256, hN⟩ (1 : Fin 3) * 2 + 2
    omega
  | ⟨2, _⟩ =>
    show win0_1.index ⟨(i 0).val / 256, hN⟩ (2 : Fin 3) * 2048 ≤ (i 2).val
      ∧ (i 2).val < win0_1.index ⟨(i 0).val / 256, hN⟩ (2 : Fin 3) * 2048 + 2048
    omega

/-- The result array after the run is G of the argument array. -/
theorem final_array (c : Dev nD) :
    (dats m 0 c).arrAt 1 cfg0.N = G (m ((c : Thread nD τ).loc main_arg0)) :=
  (dats m 0 c).arrAt_eq_of_cover 1 (G (V m c main_arg0)) (fun t _ => flushed_eq m c t) covered

/-- The kernel's run: every weakly fair execution ends with the result array at G of the argument array and the
    argument array unchanged. -/
theorem kernel_run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final_array m c), (h c).2⟩)
    (Cert.KernelIdeal.Value.run_blocks m ρ)

end Cert.Advect

end
-- ==== Proof.ReferenceRow.lean ====
/-
  The reference's result array, entry by entry: the host program applied to the whole argument array [16384, 2, 2048] is,
  at entry (R, ch, j), the advection step of row pair R.

  The host program slices the array along the rows at the six offsets, combines the slices with the weights and the
  scale, pads the difference by ten entries at either end with the converted integer zero, takes the two channels of the
  array and of the padded difference as [16384, 2048] matrices, forms the two products-and-sums, lays each out as
  [16384, 1, 2048], joins them along the channel axis and negates. Read at one entry each operation is its operand at one
  entry, so the whole is the specification's formula on row pair R.
-/
import proofs.«117995_j8787503087639_1_alg».proof.Proof.Gen.ReferenceIdeal.Read
import proofs.«117995_j8787503087639_1_alg».proof.Proof.LibRank3Rows
import proofs.«117995_j8787503087639_1_alg».proof.Proof.Spec

set_option maxRecDepth 16384

noncomputable section

namespace Cert.Advect

open Idealize.ShloMosaic Idealize.ShloMosaic.ValueIdx Cert.ReferenceIdeal Cert.ReferenceIdeal.Read Cert.Lib.Rank3Rows

/-- The host's negation at an entry is the negative of the entry. -/
theorem host_negf_apply {s : Shape} {φ : FTy} (a : FVec Ideal s φ) (i : s.Idx) : Host.negf a i = -(a i) := rfl

/-- The reference's last stage at entry (R, ch, j) is the advection step of row pair R of the argument, at channel ch
    and position j. -/
theorem reference_apply (u : (⟨S16384x2x2048, .f32⟩ : BufTy).Contents (Elt Ideal)) (R : Fin 16384) (ch : Fin 2)
    (j : Fin 2048) : val_main_v47 (F := Ideal) u (ix3 R ch j) = rows u R ch j := by
  simp only [
    val_main_v47, val_main_v46, val_main_v45, val_main_v44, val_main_v43, val_main_v42, val_main_v41, val_main_v40,
    val_main_v39, val_main_v38, val_main_v37, val_main_v36, val_main_cst_4, val_main_v35, val_main_v34, val_main_v33,
    val_main_v32, val_main_v31, val_main_v30, val_main_v29, val_main_v28, val_main_v27, val_main_v26, val_main_v25,
    val_main_v24, val_main_v23, val_main_v22, val_main_call0_v0, val_main_c, val_main_v21, val_main_v20, val_main_cst_3,
    val_main_v19, val_main_v18, val_main_v17, val_main_v16, val_main_v15, val_main_cst_2, val_main_v14, val_main_v13,
    val_main_v12, val_main_v11, val_main_cst_1, val_main_v10, val_main_v9, val_main_v8, val_main_v7, val_main_cst_0,
    val_main_v6, val_main_v5, val_main_v4, val_main_v3, val_main_cst, val_main_v2, val_main_v1, val_main_v0]
  simp only [host_negf_apply, subf_apply, addf_apply, mulf_apply, concat_mid_apply, bcast_add_mid_apply,
    cast_drop_mid_apply, slice_mid_apply, pad_last_apply, slice_last_apply, bcast_scalar3_apply,
    bcast_scalar2_apply, constant_apply, sitofp_apply]
  unfold rows advect dpad diff6
  rfl

/-- The reference's result array is G of the argument array. -/
theorem reference_eq (u : (⟨S16384x2x2048, .f32⟩ : BufTy).Contents (Elt Ideal)) :
    val_main_v47 (F := Ideal) u = G u := by
  funext i
  obtain ⟨R, ch, j, rfl⟩ : ∃ (R : Fin 16384) (ch : Fin 2) (j : Fin 2048), i = ix3 R ch j :=
    ⟨i 0, i 1, i 2, eq_ix3 i⟩
  exact reference_apply u R ch j

end Cert.Advect

end
-- ==== Proof.lean ====
/-
  A sixth-order central difference along the rows of u : f32[16384, 2, 2048], zero-padded over ten ghost entries at
  either end, combined across the two channels into the advection terms -(u1·d0 + u0·d1) and -(2·d0 + u1·d1): the
  kernel computes it block by block (64 blocks of 256 row pairs), the reference on the whole array.

  On the extended reals both are one function G of the argument array (Proof/Spec.lean): the step acts on each row pair
  by itself, both programs carry the same float words for the weights 9 and 45, the scale and the factor 2, and they sum in the
  same order, so the only law used is 0 - a = -a (the kernel subtracts from zero where the reference negates); the
  kernel's padding by joining blocks of the converted integer zero and the reference's pad operation put the same value at the same
  entries. No finiteness of the input is used.

  Proof/KernelRow.lean reads what one grid step stores at an entry; Proof/Blocks.lean carries it from the blocks to the
  whole array over the generated blockwise run; Proof/ReferenceRow.lean reads the reference's last stage at an entry over
  the generated stages; Proof/LibRank3Rows.lean holds the layout operations of rank-3 arrays read at an entry, which
  both sides use. The three frames are the generated frame runs; the idealization rewrote nothing, so preserves is
  trivial.
-/
import proofs.«117995_j8787503087639_1_alg».proof.Defs
import proofs.«117995_j8787503087639_1_alg».proof.Proof.Gen.Kernel
import proofs.«117995_j8787503087639_1_alg».proof.Proof.Gen.Kernel.Skeleton
import proofs.«117995_j8787503087639_1_alg».proof.Proof.Gen.Kernel.Launch
import proofs.«117995_j8787503087639_1_alg».proof.Proof.Gen.Kernel.Points
import proofs.«117995_j8787503087639_1_alg».proof.Proof.Gen.Kernel.Frame
import proofs.«117995_j8787503087639_1_alg».proof.Proof.Gen.KernelIdeal
import proofs.«117995_j8787503087639_1_alg».proof.Proof.Gen.KernelIdeal.Skeleton
import proofs.«117995_j8787503087639_1_alg».proof.Proof.Gen.KernelIdeal.Launch
import proofs.«117995_j8787503087639_1_alg».proof.Proof.Gen.KernelIdeal.Points
import proofs.«117995_j8787503087639_1_alg».proof.Proof.Gen.KernelIdeal.Frame
import proofs.«117995_j8787503087639_1_alg».proof.Proof.Gen.ReferenceIdeal
import proofs.«117995_j8787503087639_1_alg».proof.Proof.Gen.Pre_finite_inputs
import proofs.«117995_j8787503087639_1_alg».proof.Proof.Gen.KernelIdeal.Value
import proofs.«117995_j8787503087639_1_alg».proof.Proof.Gen.ReferenceIdeal.Run
import proofs.«117995_j8787503087639_1_alg».proof.Proof.Gen.ReferenceIdeal.Read
import proofs.«117995_j8787503087639_1_alg».proof.Proof.Blocks
import proofs.«117995_j8787503087639_1_alg».proof.Proof.ReferenceRow
import Idealize.ShloMosaic.Adequacy
import Idealize.ShloMosaic.Init

noncomputable section

namespace Cert.Proof

open Idealize.ShloMosaic Idealize.SL.Sem

/-- The kernel as printed runs to the end without a fault and leaves its argument array as it was. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run with the result forgotten. -/
theorem frame_reference_ideal : Cert.frame_ReferenceIdeal := fun m ρ _ =>
  (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- From memories that agree on the argument array both programs end with their result arrays at G of that array. -/
theorem algebraic : Cert.algebraic_KernelIdeal_ReferenceIdeal := by
  intro m ρ m' ρ' _ hagree
  refine ⟨_, Cert.Advect.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, Cert.Advect.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
